-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S128x1 : Shape := ⟨2, ![128, 1]⟩
abbrev S128x8192 : Shape := ⟨2, ![128, 8192]⟩
abbrev S128 : Shape := ⟨1, ![128]⟩
abbrev S1 : Shape := ⟨1, ![1]⟩

abbrev nBuf : Space → Nat
  | .hbm => 5
  | .vmem => 5
  | .smem => 0
  | _ => 0

abbrev bufTy : (tb : Table) → Fin (tcTables nBuf tb) → BufTy
  | .hbm, ⟨0, _⟩ => ⟨S8192, .f32⟩
  | .hbm, ⟨1, _⟩ => ⟨S8192x1, .f32⟩
  | .hbm, ⟨2, _⟩ => ⟨S1x8192, .f32⟩
  | .hbm, ⟨3, _⟩ => ⟨S1x1, .f32⟩
  | .hbm, ⟨4, _⟩ => ⟨S1, .f32⟩
  | .local _ .vmem, ⟨0, _⟩ => ⟨S128x1, .f32⟩
  | .local _ .vmem, ⟨1, _⟩ => ⟨S128x1, .f32⟩
  | .local _ .vmem, ⟨2, _⟩ => ⟨S1x8192, .f32⟩
  | .local _ .vmem, ⟨3, _⟩ => ⟨S1x1, .f32⟩
  | .local _ .vmem, ⟨4, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v47 : BitVec 1 := Scalar.cmpi .eq arg0 c63_i32
  let v48 : BitVec 32 := Scalar.extui v47
  let c0_i32_14 : BitVec 32 := 0#32
  let v49 : BitVec 1 := Scalar.cmpi .ne v48 c0_i32_14
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  iota_S128x1_d0_w32 : S128x1.Iotas .tc 32 [0]
  iota_S1x8192_d1_w32 : S1x8192.Iotas .tc 32 [1]
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  shapeCasts_S1x1_S1 : S1x1.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S8192x1.size a
  hwx0_0 : ∀ i : grid0.Coords, EltTy.bits .f32 = 32 ∨ (Rect.block (s := S8192x1) S128x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S1 : Shape := ⟨1, ![1]⟩

abbrev nBuf : Space → Nat
  | .hbm => 42
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x1, .f32⟩
  | .hbm, ⟨2, _⟩ => ⟨S1x8192, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .i1⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .i1⟩
  | .hbm, ⟨23, _⟩ => ⟨S8192x8192, .i1⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .i1⟩
  | .hbm, ⟨31, _⟩ => ⟨S8192x8192, .i1⟩
  | .hbm, ⟨32, _⟩ => ⟨S8192x8192, .i1⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_0 : Ref sig .tc := ⟨.hbm, 30, rfl⟩
abbrev main_call1_v5 : Ref sig .tc := ⟨.hbm, 31, rfl⟩
abbrev main_v7 : Ref sig .tc := ⟨.hbm, 32, rfl⟩
abbrev main_cst : Ref sig .tc := ⟨.hbm, 33, rfl⟩
abbrev main_call2_v0 : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  shapeCasts_S_S1 : S_.ShapeCasts S1

variable [Facts₀]

class Facts : Prop extends Facts₀ where

variable [Facts]
-- ==== Proof.Pieces.lean ====
/-
  What one grid point of the kernel leaves behind, as values.

  The kernel keeps a running total in a one-element scratch cell. At every point it computes the point's tile sum
  (the payload k0_pay4 of the point's two input blocks: 128 entries of p as a column, all 8192 as a row) and adds it to the
  cell (k0_pay1: cell + tile sum). At the first point it first stores zero into the cell (k0_pay3), so the cell then holds
  0 + tile sum; at the later points the cell held what the point before left. At the last point it also stores
  (0 - cell) / N into the one-element output block (k0_pay2).

  Each statement below reads the stores a case of the body made — one whole-block store, or two with the later one
  on top — back as the payload of the last store, the loads it depends on reading the whole buffers they were made from.
-/
import proofs.«177602_j10359461118671_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KValue

open Cert.KernelIdeal Cert.KernelIdeal.Gen

variable {F : FTy → Type} [FloatOps F]

/-- The zero offsets of a rank-2 block, however they are spelt. -/
theorem hz : (![0, 0] : Fin 2 → Nat) = fun _ => 0 := funext fun a => by fin_cases a <;> rfl

/-- FIRST POINT: the scratch cell is zeroed, read back, and left at zero plus the point's tile sum. -/
theorem sout_A (c : Dev nD) (i : grid0.Coords) (a1 : Memref sig .tc .vmem S128x1 .f32) (h1 : a1.IsWhole)
    (a2 : Memref sig .tc .vmem S1x8192 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S128x1 .f32) (x1 : Vec F S1x8192 .f32) :
    sout0_A_0 c i a1 h1 a2 h2 a3 h3 a4 h4 hc0 hc1 x0 x1 = k0_pay1 (k0_pay4 i x0 x1) (k0_pay3 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S128x1) hz,
    View.ld_unit_zero (S := S1x8192) hz]

/-- A MIDDLE POINT: the scratch cell, holding xs0, is left at xs0 plus the point's tile sum. -/
theorem sout_B (c : Dev nD) (i : grid0.Coords) (a1 : Memref sig .tc .vmem S128x1 .f32) (h1 : a1.IsWhole)
    (a2 : Memref sig .tc .vmem S1x8192 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S128x1 .f32) (x1 : Vec F S1x8192 .f32) (xs0 : Vec F S1x1 .f32) :
    sout0_B_0 c i a1 h1 a2 h2 a3 h3 a4 h4 hc0 hc1 x0 x1 xs0 = k0_pay1 (k0_pay4 i x0 x1) xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S1x1) hz,
    View.ld_unit_zero (S := S128x1) hz, View.ld_unit_zero (S := S1x8192) hz]

/-- THE LAST POINT, the scratch cell: as at a middle point. -/
theorem sout_C (c : Dev nD) (i : grid0.Coords) (a1 : Memref sig .tc .vmem S128x1 .f32) (h1 : a1.IsWhole)
    (a2 : Memref sig .tc .vmem S1x8192 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S128x1 .f32) (x1 : Vec F S1x8192 .f32) (xs0 : Vec F S1x1 .f32) :
    sout0_C_0 c i a1 h1 a2 h2 a3 h3 a4 h4 hc0 hc1 x0 x1 xs0 = k0_pay1 (k0_pay4 i x0 x1) xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S1x1) hz,
    View.ld_unit_zero (S := S128x1) hz, View.ld_unit_zero (S := S1x8192) hz]

/-- THE LAST POINT, the output block: the scaled negation of the cell as this point has just left it. -/
theorem out_C (c : Dev nD) (i : grid0.Coords) (a1 : Memref sig .tc .vmem S128x1 .f32) (h1 : a1.IsWhole)
    (a2 : Memref sig .tc .vmem S1x8192 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S128x1 .f32) (x1 : Vec F S1x8192 .f32) (xs0 : Vec F S1x1 .f32) :
    out0_C_2 c i a1 h1 a2 h2 a3 h3 a4 h4 hc0 hc1 x0 x1 xs0 = k0_pay2 (k0_pay1 (k0_pay4 i x0 x1) xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S1x1) hz,
    View.ld_unit_zero (S := S128x1) hz, View.ld_unit_zero (S := S1x8192) hz]

end Cert.KernelIdeal.KValue

end
-- ==== Proof.Chain.lean ====
/-
  The running total across the grid, in the kernel's own terms (at any float instance).

  The scratch cell carries the total from point to point. What the frame run records of the cell after point n — defined by
  recursion on n over the three cases of the body: the first point (which zeroes the cell first), a middle point, the last
  point — is the running total: zero plus tile sum 0, then plus tile sum 1, and so on (scratch_eq, by induction on the
  point). At the last point, 63, the output block is left at the scaled negation of the final running total (out_last).
-/
import proofs.«177602_j10359461118671_1_alg».proof.Proof.Pieces

noncomputable section

open Idealize.ShloMosaic Idealize.ShloMosaic.TcCoe Idealize.SL.Sem

namespace Cert.KernelIdeal.KValue

open Cert.KernelIdeal Cert.KernelIdeal.Gen

variable {F : FTy → Type} [FloatOps F]
variable (m : (ℓ : Loc nD τ sig) → Buf (Elt F) ℓ)

/-- Point n's tile sum: the tile payload of the point's column block and row block. -/
def part (c : Dev nD) (n : ℕ) (h : n < cfg0.N) : Vec F S1x1 .f32 :=
  k0_pay4 (grid0.coords ⟨n, h⟩) (iblk m c 0 ⟨n, h⟩) (iblk m c 1 ⟨n, h⟩)

/-- The running total in the scratch cell after point n: zero plus the first tile sum, then plus each later one. -/
def acc (c : Dev nD) : (n : ℕ) → n < cfg0.N → Vec F S1x1 .f32
  | 0, h => k0_pay1 (part m c 0 h) (k0_pay3 (F := F))
  | n + 1, h => k0_pay1 (part m c (n + 1) h) (acc c n (Nat.lt_of_succ_lt h))

/-- What the scratch cell holds after point n is the running total — by induction on the point: the first point is the
    zeroing case, every later one adds to what the point before left (the last point does so too, besides storing the result). -/
theorem scratch_eq (c : Dev nD) : ∀ (n : ℕ) (h : n < cfg0.N), (outsAt0 m c n h).2 = acc m c n h
  | 0, h => by
    rw [outsAt0_A m c ⟨0, h⟩ rfl (by dsimp only; omega)]
    dsimp only
    rw [sout_A]
    rfl
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [sout_C]
      show k0_pay1 _ (outsAt0 m c n _).2 = k0_pay1 _ (acc m c n _)
      rw [scratch_eq c n]
      rfl
    · rw [outsAt0_B m c ⟨n + 1, h⟩ h0 h1]
      dsimp only
      rw [sout_B]
      show k0_pay1 _ (outsAt0 m c n _).2 = k0_pay1 _ (acc m c n _)
      rw [scratch_eq c n]
      rfl

/-- At the last point the output block is left at the scaled negation of the final running total. -/
theorem out_last (c : Dev nD) (h : 63 < cfg0.N) : (outsAt0 m c 63 h).1 = k0_pay2 (acc m c 63 h) := by
  rw [outsAt0_C m c ⟨63, h⟩ (by dsimp only; omega) rfl]
  dsimp only
  rw [out_C]
  show k0_pay2 (k0_pay1 _ (outsAt0 m c 62 _).2) = k0_pay2 (k0_pay1 _ (acc m c 62 _))
  rw [scratch_eq m c 62]
  rfl

end Cert.KernelIdeal.KValue

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.Spec.lean ====
/-
  The pairwise ranking loss, as mathematics on the extended reals, with no program in sight.

  For a vector p of 8192 entries the loss is  -( Σ_{i<j} logσ(p i - p j) ) / N  with N = 8192·8191/2 pairs, where
  logσ(d) = -softplus(-d) and softplus(x) = max x 0 + log(1 + exp(-|x|)),  |x| = max x (-x).
  Both programs spell softplus through a guard "x ≠ x" that selects x + 0 instead; on the extended reals nothing differs
  from itself, so the guard never fires (cmp_one_self, cmp_une_self), and the two spellings of one pair's term —
  the one that negates by subtracting from zero, the one that negates — are the same extended real (elem_sub, elem_neg).
  A sum over the 8192 rows is the sum over 64 tiles of 128 rows, row 128·t + r being row r of tile t (sum_tiles64).
-/
import Idealize.ShloMosaic.PureOps.Ideal
import Idealize.ShloMosaic.PureOps.Ideal.Laws
import Idealize.ShloMosaic.Lib.ValueIdx
import proofs.«177602_j10359461118671_1_alg».proof.Proof.LibTiles

noncomputable section

open scoped BigOperators

namespace Cert.PairLoss

open Idealize.ShloMosaic

/-- softplus(x) = max x 0 + log(1 + exp(-|x|)), with |x| = max x (-x). -/
def softplus (x : EReal) : EReal := max x 0 + Ideal.log1p (Ideal.exp (-(max x (-x))))

/-- logσ(d) = -softplus(-d). -/
def logSig (d : EReal) : EReal := -(softplus (-d))

/-- The term of the ordered pair (i, j): logσ(p i - p j) when i < j, nothing otherwise. -/
def pairTerm (p : Fin 8192 → EReal) (i j : Fin 8192) : EReal := if i.val < j.val then logSig (p i - p j) else 0

/-- The sum of the terms of all pairs. -/
def total (p : Fin 8192 → EReal) : EReal := ∑ i : Fin 8192, ∑ j : Fin 8192, pairTerm p i j

/-- The number of pairs i < j, 8192·8191/2 = 33550336, as the float both programs divide by. -/
def pairCount : EReal := Ideal.ofBits .f32 0x4BFFF800#32

/-- The loss: minus the total, divided by the number of pairs. -/
def loss (p : Fin 8192 → EReal) : EReal := Ideal.div (-(total p)) pairCount

/-- Nothing differs from itself: the "ordered and unequal" comparison of a value with itself is false, -/
theorem cmp_one_self (x : EReal) : Ideal.cmp .one x x = 0#1 := by simp [Ideal.cmp]

/-- and so is the "unordered or unequal" one. -/
theorem cmp_une_self (x : EReal) : Ideal.cmp .une x x = 0#1 := by simp [Ideal.cmp]

/-- One pair's term, spelt with every negation a subtraction from zero. -/
theorem elem_sub (d : EReal) :
    (0 : EReal) - Scalar.select (Ideal.cmp .one (0 - d - 0) (0 - d - 0)) (0 - d + 0)
        (max (0 - d) 0 + Ideal.log1p (Ideal.exp (0 - max (0 - d - 0) (-(0 - d - 0))))) = logSig d := by
  rw [cmp_one_self, ValueIdx.select_zero]
  simp only [zero_sub, sub_zero]
  rfl

/-- One pair's term, spelt with negations. -/
theorem elem_neg (d : EReal) :
    -(Scalar.select (Ideal.cmp .une (-d - 0) (-d - 0)) (-d + 0)
        (max (-d) 0 + Ideal.log1p (Ideal.exp (-(max (-d - 0) (-(-d - 0))))))) = logSig d := by
  rw [cmp_une_self, ValueIdx.select_zero]
  simp only [sub_zero]
  rfl

/-- A sum over the 8192 rows, tile by tile: 64 tiles of 128 rows. -/
theorem sum_tiles64 {M : Type*} [AddCommMonoid M] (g : Fin 8192 → M) :
    ∑ t : Fin 64, ∑ r : Fin 128, g ⟨128 * t.val + r.val, by omega⟩ = ∑ i : Fin 8192, g i :=
  Cert.LibTiles.sum_tiles_mul 64 128 g fun j p => by omega

end Cert.PairLoss

end
-- ==== Proof.Tile.lean ====
/-
  One grid point's tile sum, on the extended reals.

  Point t of the grid sees 128 entries of p as a column x0 (rows 128·t … 128·t + 127 of the vector) and all 8192 entries
  as a row x1. It forms the 128 × 8192 table of differences x0 r - x1 c, applies log σ to every entry, keeps the entries
  whose row number in the whole vector, 128·t + r, is below the column number c, puts zero elsewhere, sums each row, and
  sums the 128 row sums. Read at the extended reals each of the two sums is a finite sum over the reduced coordinate, the
  broadcasts read the column at r and the row at c, the counters read r and c, and one entry is the pair's term or zero
  (tile_elem): so the tile sum is the double sum of the pairs' terms over the tile (tile_sum).
-/
import proofs.«177602_j10359461118671_1_alg».proof.Proof.Gen.KernelIdeal.Skeleton
import proofs.«177602_j10359461118671_1_alg».proof.Proof.Spec
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

noncomputable section

open scoped BigOperators
open Idealize.ShloMosaic Idealize.ShloMosaic.ValueIdx

namespace Cert.KernelIdeal.KValue

open Cert.KernelIdeal Cert.KernelIdeal.Gen Cert.PairLoss

/-- The mask of one tile as arithmetic: row r of tile t is row 128·t + r, and the comparison of the two row and
    column numbers as signed 32-bit words is their comparison as numbers (both are below 8192). -/
theorem mask_iff (t r c : Nat) (ht : t < 64) (hr : r < 128) (hc : c < 8192) :
    IntOp.cmpi .slt (IntOp.addi (BitVec.ofNat 32 r) (Scalar.muli (BitVec.ofNat 32 t) 128#32)) (BitVec.ofNat 32 c) = 1#1
      ↔ 128 * t + r < c := by
  rw [IntOp.cmpi_slt]
  have hA : (IntOp.addi (BitVec.ofNat 32 r) (Scalar.muli (BitVec.ofNat 32 t) 128#32)).toNat = 128 * t + r := by
    show (BitVec.ofNat 32 r + BitVec.ofNat 32 t * 128#32).toNat = _
    rw [BitVec.toNat_add, BitVec.toNat_mul, BitVec.toNat_ofNat, BitVec.toNat_ofNat]
    show (r % 2 ^ 32 + t % 2 ^ 32 * 128 % 2 ^ 32) % 2 ^ 32 = _
    omega
  have hC : (BitVec.ofNat 32 c).toNat = c := by rw [BitVec.toNat_ofNat]; omega
  rw [BitVec.toInt_eq_toNat_of_lt (by omega), BitVec.toInt_eq_toNat_of_lt (by omega), hA, hC]
  omega

/-- A column [128,1] broadcast along the rows reads, at (r, c), the column at r. -/
theorem bcast_col {α : Type} (v : S128x1.Idx → α) (r : Fin 128) (c : Fin 8192) :
    broadcastTo S128x8192 v broadcasts_S128x1_S128x8192 (ix2 r c) = v (ix2 r (0 : Fin 1)) := by
  refine broadcastTo_apply v _ (ix2 r c) (ix2 r (0 : Fin 1)) fun a => ?_
  match a with
  | ⟨0, _⟩ => rfl
  | ⟨1, _⟩ => rfl

/-- A row [1,8192] broadcast along the columns reads, at (r, c), the row at c. -/
theorem bcast_row {α : Type} (v : S1x8192.Idx → α) (r : Fin 128) (c : Fin 8192) :
    broadcastTo S128x8192 v broadcasts_S1x8192_S128x8192 (ix2 r c) = v (ix2 (0 : Fin 1) c) :=
  broadcastTo_1b_ab_apply v _ r c

/-- One entry of a tile: the pair's term where the row number is below the column number, zero elsewhere. -/
theorem tile_elem (t : Nat) (ht : t < 64) (r : Fin 128) (c : Fin 8192) (a b : EReal) :
    Scalar.select
        (IntOp.cmpi .slt (IntOp.addi (BitVec.ofNat 32 r.val) (Scalar.muli (BitVec.ofNat 32 t) 128#32)) (BitVec.ofNat 32 c.val))
        ((0 : EReal) - Scalar.select (Ideal.cmp .one (0 - (a - b) - 0) (0 - (a - b) - 0)) (0 - (a - b) + 0)
          (max (0 - (a - b)) 0 + Ideal.log1p (Ideal.exp (0 - max (0 - (a - b) - 0) (-(0 - (a - b) - 0))))))
        (0 : EReal)
      = if 128 * t + r.val < c.val then logSig (a - b) else 0 := by
  rw [elem_sub]
  by_cases h : 128 * t + r.val < c.val
  · rw [(mask_iff t r.val c.val ht r.isLt c.isLt).mpr h, select_one, if_pos h]
  · rw [eq_zero_of_ne_one (fun hh => h ((mask_iff t r.val c.val ht r.isLt c.isLt).mp hh)), select_zero, if_neg h]

/-- THE TILE SUM. A point's contribution, at the one index of its [1,1] result: over the point's 128 rows and all 8192
    columns, the pair's term wherever the row's number in the whole vector is below the column's. -/
theorem tile_sum (i : grid0.Coords) (x0 : Vec Ideal S128x1 .f32) (x1 : Vec Ideal S1x8192 .f32) (y : S1x1.Idx) :
    k0_pay4 (F := Ideal) i x0 x1 y
      = ∑ r : Fin 128, ∑ c : Fin 8192,
          (if 128 * (i 0).val + r.val < c.val then logSig (x0 (ix2 r (0 : Fin 1)) - x1 (ix2 (0 : Fin 1) c)) else 0) := by
  have hi : (i 0).val < 64 := (i 0).isLt
  unfold k0_pay4
  refine (shapeCast_addUnit_apply ![1] _ _ y).trans ?_
  refine (Ideal.multiReduction_add_single _ _ _ _ _ _).trans ?_
  refine Finset.sum_congr rfl fun (r : Fin 128) _ => ?_
  refine (shapeCast_apply _ _ _ (ix1 (n := 128) r) ?_).trans ?_
  · rw [Shape.rowMajor_val_one, Shape.rowMajor_val_two]
    have hy : (y 1).val < 1 := (y 1).isLt
    show r.val = r.val * 1 + (y 1).val
    omega
  refine (Ideal.multiReduction_add_single _ _ _ _ _ _).trans ?_
  refine Finset.sum_congr rfl fun (c : Fin 8192) _ => ?_
  have e : reduces_S128x8192_S128.lift (ix1 (n := 128) r) c = ix2 (n0 := 128) (n1 := 8192) r c :=
    funext fun a => Fin.ext (by match a with | ⟨0, _⟩ => rfl | ⟨1, _⟩ => rfl)
  rw [e]
  simp only [select, cmpi, cmpf, subf, addf, maximumf, log1p, exp, absf, addi, broadcast, bcast_col, bcast_row, shapeCast_self,
    iota_single_apply]
  simp only [Ideal.ofBits_def, Ideal.ofBits_zero_f32, Ideal.subf_def, Ideal.addf_def, Ideal.maximumf_def, Ideal.log1p_def,
    Ideal.exp_def, Ideal.cmpf_def, Ideal.absf_def]
  have e0 : iota .tc S128x1 32 [0] iota_S128x1_d0_w32 (ix2 r (0 : Fin 1)) = BitVec.ofNat 32 r.val :=
    iota_single_apply .tc S128x1 32 0 iota_S128x1_d0_w32 _
  have e1 : iota .tc S1x8192 32 [1] iota_S1x8192_d1_w32 (ix2 (0 : Fin 1) c) = BitVec.ofNat 32 c.val :=
    iota_single_apply .tc S1x8192 32 1 iota_S1x8192_d1_w32 _
  rw [e0, e1]
  exact tile_elem (i 0).val hi r c _ _

end Cert.KernelIdeal.KValue

end
-- ==== Proof.Blocks.lean ====
/-
  What the two input windows hold, in terms of the input vector p.

  Before the grid runs, p is laid out twice: as a column [8192, 1] and as a row [1, 8192] (two reshapes: entry k of p sits at
  (k, 0) of the column and at (0, k) of the row, the same row-major position). The column window of point t is rows
  128·t … 128·t + 127 of the column, so its row r is entry 128·t + r of p; the row window is the whole row at every point,
  so its column q is entry q of p. The grid is a line of 64 points, point t having coordinate t.
-/
import proofs.«177602_j10359461118671_1_alg».proof.Proof.Gen.KernelIdeal.Frame.Runs
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.KValue

open Cert.KernelIdeal Cert.KernelIdeal.Gen

variable {F : FTy → Type} [FloatOps F]
variable (m : (ℓ : Loc nD τ sig) → Buf (Elt F) ℓ)

/-- The column operand as the region finds it: the input vector reshaped to [8192, 1]. -/
theorem V_col (c : Dev nD) :
    (V m c main_v0 : Vec F S8192x1 .f32) = shapeCast S8192x1 (m ((c : Thread nD τ).loc main_arg0)) shapeCasts_S8192_S8192x1 := by
  show StableHlo.after hostOps0 (fun b => m (c, b)) (Proc.devRef .tc main_v0) = _
  after_results
  rfl

/-- The row operand as the region finds it: the input vector reshaped to [1, 8192]. -/
theorem V_row (c : Dev nD) :
    (V m c main_v1 : Vec F S1x8192 .f32) = shapeCast S1x8192 (m ((c : Thread nD τ).loc main_arg0)) shapeCasts_S8192_S1x8192 := by
  show StableHlo.after hostOps0 (fun b => m (c, b)) (Proc.devRef .tc main_v1) = _
  after_results
  rfl

/-- Where the two input windows sit at point t: the column window at row block t, the row window always at the origin. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)

/-- Row r of the column block at point t is entry 128·t + r of the input vector. -/
theorem iblk0_apply (c : Dev nD) (t : Fin cfg0.N) (r : Fin 128) :
    iblk m c 0 t (ix2 r (0 : Fin 1))
      = m ((c : Thread nD τ).loc main_arg0)
          (ix1 (⟨128 * t.val + r.val, by have := t.isLt; have hN : cfg0.N = 64 := N_0; omega⟩ : Fin 8192)) := by
  unfold iblk
  rw [View.read_apply]
  show V m c main_v0 (((cfg0.win 0).blk t).view.emb (ix2 r (0 : Fin 1))) = _
  rw [V_col]
  refine (shapeCast_apply _ _ _ (ix1 (⟨128 * t.val + r.val, by have := t.isLt; have hN : cfg0.N = 64 := N_0; omega⟩ : Fin 8192)) ?_).trans rfl
  rw [Shape.rowMajor_val_one, Shape.rowMajor_val_two]
  show 128 * t.val + r.val = (win0_0.index t 0 * 128 + 1 * r.val) * 1 + (win0_0.index t 1 * 1 + 1 * 0)
  rw [(idx0 t).1, (idx0 t).2]; omega

/-- Column q of the row block, at any point, is entry q of the input vector. -/
theorem iblk1_apply (c : Dev nD) (t : Fin cfg0.N) (q : Fin 8192) :
    iblk m c 1 t (ix2 (0 : Fin 1) q) = m ((c : Thread nD τ).loc main_arg0) (ix1 q) := by
  unfold iblk
  rw [View.read_apply]
  show V m c main_v1 (((cfg0.win 1).blk t).view.emb (ix2 (0 : Fin 1) q)) = _
  rw [V_row]
  refine (shapeCast_apply _ _ _ (ix1 q) ?_).trans rfl
  rw [Shape.rowMajor_val_one, Shape.rowMajor_val_two]
  show q.val = (win0_1.index t 0 * 1 + 1 * 0) * 8192 + (win0_1.index t 1 * 8192 + 1 * q.val)
  rw [(idx1 t).1, (idx1 t).2]; omega

/-- The grid is a line: point t has coordinate t. -/
theorem coords0 : ∀ t : Fin cfg0.N, (grid0.coords t 0).val = t.val :=
  (by decide +kernel : ∀ t : Fin grid0.N, (grid0.coords t 0).val = t.val)

end Cert.KernelIdeal.KValue

end
-- ==== Proof.Total.lean ====
/-
  The kernel's running total is the total of the specification, on the extended reals.

  Read at the one index of a [1,1] block: adding a tile sum to the cell is the sum of the two (pay1_apply), the zero the
  first point stores is 0 (pay3_apply), what the last point stores is minus the cell over the number of pairs (pay2_apply).
  Point n's tile sum, with the blocks read as entries of p, is the sum of all pair terms of the rows 128·n … 128·n + 127
  (part_apply). A total that starts at 0 + tile sum 0 and adds one tile sum per point is, after the 64th point, the sum
  over the 64 tiles; the rows of the tiles are all 8192 rows; so the cell ends at the sum of all pair terms (acc_total) and
  the output block at the loss (out_value). Addition on the extended reals is commutative and associative, which is
  all the regrouping uses: no entry needs to be finite.
-/
import proofs.«177602_j10359461118671_1_alg».proof.Proof.Chain
import proofs.«177602_j10359461118671_1_alg».proof.Proof.Tile
import proofs.«177602_j10359461118671_1_alg».proof.Proof.Blocks

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.PairLoss

variable (m : (ℓ : Loc nD τ sig) → Buf (Elt Ideal) ℓ)

/-- The input vector p on core c, entry by entry. -/
def inp (c : Dev nD) : Fin 8192 → EReal := fun k => m ((c : Thread nD τ).loc main_arg0) (ix1 k)

/-- All the pair terms of row i: Σ_j term(i, j). -/
def rowTerms (p : Fin 8192 → EReal) (i : Fin 8192) : EReal := ∑ q : Fin 8192, pairTerm p i q

/-- Adding a tile sum v to the cell w. -/
theorem pay1_apply (v w : Vec Ideal S1x1 .f32) (y : S1x1.Idx) : k0_pay1 (F := Ideal) v w y = w y + v y := by
  unfold k0_pay1
  rw [shapeCast_self]
  rfl

/-- The zero the first point stores. -/
theorem pay3_apply (y : S1x1.Idx) : k0_pay3 (F := Ideal) y = 0 := by
  unfold k0_pay3
  rw [shapeCast_self]
  exact Ideal.ofBits_zero_f32

/-- The result the last point stores: minus the cell, over the number of pairs. -/
theorem pay2_apply (v : Vec Ideal S1x1 .f32) (y : S1x1.Idx) :
    k0_pay2 (F := Ideal) v y = Ideal.div (-(v y)) pairCount := by
  unfold k0_pay2
  show Ideal.div (Ideal.ofBits .f32 0x00000000#32 - v y) (Ideal.ofBits .f32 0x4BFFF800#32) = _
  rw [Ideal.ofBits_zero_f32, zero_sub]
  rfl

/-- Point n's tile sum is the sum of all pair terms of the rows 128·n … 128·n + 127. -/
theorem part_apply (c : Dev nD) (n : ℕ) (h : n < cfg0.N) (y : S1x1.Idx) :
    part m c n h y = ∑ r : Fin 128, rowTerms (inp m c)
      ⟨128 * n + r.val, by have hN : cfg0.N = 64 := N_0; omega⟩ := by
  unfold part
  rw [tile_sum]
  refine Finset.sum_congr rfl fun r _ => Finset.sum_congr rfl fun q _ => ?_
  rw [coords0 ⟨n, h⟩, iblk0_apply, iblk1_apply]
  rfl

/-- After the last point the cell holds the sum of the pair terms of all 8192 rows: the 64 tile sums added one by one from
    zero are the sum over the tiles, and the rows of the 64 tiles are all the rows. -/
theorem acc_total (c : Dev nD) (h : 63 < cfg0.N) (y : S1x1.Idx) : acc m c 63 h y = total (inp m c) := by
  have hN : cfg0.N = 64 := N_0
  let x : Fin (63 + 1) → EReal := fun j => ∑ r : Fin 128, rowTerms (inp m c) ⟨128 * j.val + r.val, by omega⟩
  let a : ℕ → EReal := fun n => if hn : n < cfg0.N then acc m c n hn y else 0
  have h0 : a 0 = x 0 := by
    show (if hn : 0 < cfg0.N then acc m c 0 hn y else 0) = _
    rw [dif_pos (by omega)]
    show k0_pay1 (F := Ideal) (part m c 0 _) (k0_pay3 (F := Ideal)) y = _
    rw [pay1_apply, pay3_apply, zero_add, part_apply]
    rfl
  have hs : ∀ j : ℕ, ∀ hj : j + 1 < 63 + 1, a (j + 1) = a j + x ⟨j + 1, hj⟩ := by
    intro j hj
    show (if hn : j + 1 < cfg0.N then acc m c (j + 1) hn y else 0) = (if hn : j < cfg0.N then acc m c j hn y else 0) + _
    rw [dif_pos (by omega), dif_pos (by omega)]
    show k0_pay1 (F := Ideal) (part m c (j + 1) _) (acc m c j _) y = _
    rw [pay1_apply, part_apply]
  have hf := Cert.LibTiles.fold_all x a h0 hs
  have ha : a 63 = acc m c 63 h y := dif_pos h
  rw [← ha, hf]
  exact sum_tiles64 (rowTerms (inp m c))

/-- THE KERNEL'S RESULT BLOCK: after the last point the output block holds the loss of p, at its one index. -/
theorem out_value (c : Dev nD) (h : 63 < cfg0.N) : (outsAt0 m c 63 h).1 = fun _ => loss (inp m c) := by
  rw [out_last]
  funext y
  rw [pay2_apply, acc_total]
  rfl

end Cert.KernelIdeal.KValue

end
-- ==== Proof.KernelRun.lean ====
/-
  The kernel's run ends at the loss.

  The output window is written back once, after the last grid point, and its one block is the whole [1,1] result array: so
  that array ends holding what the last point left in the block, the loss of p (flushed_eq, final_out). After the region
  the program views the [1,1] array as a vector of one element — the same one entry (tail_value). The frame run states
  every array after the run and every other buffer after the lines that follow the region; read at the result and at the
  argument it says: the result is the loss of the argument's launch contents, the argument is unchanged (run).
-/
import proofs.«177602_j10359461118671_1_alg».proof.Proof.Total
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.PairLoss

variable (m : (ℓ : Loc nD τ sig) → Buf (Elt Ideal) ℓ) (ρ : Dev nD → PrngReg)

/-- What the one-element result array ends holding: the loss of p. -/
abbrev result (c : Dev nD) : Buf (Elt Ideal) ((c : Thread nD τ).loc main_v2) := fun _ => loss (inp m c)

/-- The last point of the grid. -/
abbrev tLast : Fin cfg0.N := ⟨63, by rw [show cfg0.N = 64 from N_0]; decide⟩

/-- The one write-back, at the last point, writes the loss: the block at the origin of the [1,1] array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2, out_value]
  have hz' : (fun a => win0_2.index tLast a * main_v2.ty.shape.size a) = fun _ => 0 :=
    funext fun a => by fin_cases a <;> decide
  exact (Memref.read_access_unit_zero (Elt Ideal) main_v2 hz' (fun a => by rw [congrFun hz' a]; simp) (result m c)).symm

/-- So the result array ends holding the loss: the last point's block covers it. -/
theorem final_out (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- After the region the [1,1] array is viewed as a vector of one element: still the loss. -/
theorem tail_value (c : Dev nD) :
    Pipeline.afterTail₀ cfgs (dats m) 0 (V0 m) [hostOps1] c main_v3 = fun _ => loss (inp m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = result m c :=
    (Pipeline.withArrays_arr spec0 launch0.win.arr_inj c _ _ 2).trans (final_out m c)
  funext i
  show shapeCast S1 (Pipeline.withArrays (cfgs 0).spec c (V0 m c) (fun w => (dats m 0 c).arrAt w (cfgs 0).N)
      (Proc.devRef .tc main_v2)) shapeCasts_S1x1_S1 i = _
  rw [e]
  rfl

/-- THE KERNEL'S RUN, READ: every weakly fair execution of the program terminates with its result, a vector of one
    element, at the loss of the argument's launch contents, and with the argument unchanged. -/
theorem run : θ_run (defs (F := Ideal)) (onTc (τ := τ) (main (F := Ideal))) ⟨m, fun _ => 0, ρ⟩ fun r => ∀ c : Dev nD,
      r.2.mem ((c.tc : Thread nD τ).loc main_v3) = (fun _ => loss (inp m c))
      ∧ r.2.mem ((c.tc : Thread nD τ).loc main_arg0) = m ((c.tc : Thread nD τ).loc main_arg0) :=
  (θ_run defs _ _).mono
    (fun _ h c =>
      ⟨((h c).2 main_v3 (Pipeline.mem_restRefs_of main_v3 (by decide) (by decide))).trans (tail_value m c),
        ((h c).2 main_arg0 (Pipeline.mem_restRefs_of main_arg0 (by decide) (by decide))).trans (W_main_arg0 m (dats m) c)⟩)
    (run_main m ρ)

end Cert.KernelIdeal.KValue

end
-- ==== Proof.RefValue.lean ====
/-
  The reference program's run, and the value it leaves.

  The reference forms the 8192 × 8192 table of differences p i - p j, applies log-sigmoid to every entry (minus softplus
  of minus, softplus spelt with a guard "x - 0 differs from itself" that selects x + 0), keeps the entries strictly above
  the diagonal (a mask built from the row and column numbers compared as signed 32-bit integers), sums what is kept from
  zero, negates, and divides by the number of pairs. Here:

  * its operations are listed in order, each function's operations in place of its call (ops, main_eq), so that every
    fair execution ends with each buffer at the operations' fold over the launch contents (run_all);
  * the fold at the result buffer is one term of the argument (result, result_eq), and the argument is never written
    (arg_eq);
  * that term, read at its one index, is the pairwise loss of the argument (result_apply): a double broadcast reads p at
    the row or the column (col_apply, row_apply), on the extended reals nothing differs from itself so each entry is the
    specification's log-sigmoid (logSigV_apply), row and column numbers below 8192 read as themselves as signed words so
    the mask is "row < column" (upper_apply), and the sum over the square is the double sum over rows and columns;
  * together: the run leaves the loss in the result buffer and the argument unchanged (run).
-/
import proofs.«177602_j10359461118671_1_alg».proof.Defs
import proofs.«177602_j10359461118671_1_alg».proof.Proof.Gen.ReferenceIdeal
import proofs.«177602_j10359461118671_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine
import Idealize.ShloMosaic.Lib.WordArith

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The run -/

/-- The program's forty-one operations in order: five that build the table of differences; the sixteen of log-sigmoid
    (a negation, softplus's fourteen, a negation); the constant true and its broadcast; the nine that build the mask;
    the zero, its broadcast and the select that keep the masked entries; the zero, the sum, the negation, the pair count,
    the division and the reshape to one element. -/
abbrev ops : List (HloOp τ sig (Elt F)) :=
  [ unary main_arg0 main_v0 (broadcastInDim S8192x1 ![0] bcast_S8192_S8192x1_0 : (⟨S8192, .f32⟩ : BufTy).Contents (Elt F) → (⟨S8192x1, .f32⟩ : BufTy).Contents (Elt F)),
    unary main_arg0 main_v1 (broadcastInDim S1x8192 ![1] bcast_S8192_S1x8192_1 : (⟨S8192, .f32⟩ : BufTy).Contents (Elt F) → (⟨S1x8192, .f32⟩ : BufTy).Contents (Elt F)),
    unary main_v0 main_v2 (broadcastInDim S8192x8192 ![0, 1] bcast_S8192x1_S8192x8192_0_1 : (⟨S8192x1, .f32⟩ : BufTy).Contents (Elt F) → (⟨S8192x8192, .f32⟩ : BufTy).Contents (Elt F)),
    unary main_v1 main_v3 (broadcastInDim S8192x8192 ![0, 1] bcast_S1x8192_S8192x8192_0_1 : (⟨S1x8192, .f32⟩ : BufTy).Contents (Elt F) → (⟨S8192x8192, .f32⟩ : BufTy).Contents (Elt F)),
    binary main_v2 main_v3 main_v4 (subf : (⟨S8192x8192, .f32⟩ : BufTy).Contents (Elt F) → (⟨S8192x8192, .f32⟩ : BufTy).Contents (Elt F) → (⟨S8192x8192, .f32⟩ : BufTy).Contents (Elt F)),
    TRef.unary (.of main_v4 : TRef sig ⟨S8192x8192, .f32⟩) main_call0.v0 Host.negf,
    TRef.nullary main_call0.call0.cst (constant S_ .f32 0x00000000#32),
    TRef.unary main_call0.call0.cst main_call0.call0.v0 (broadcastInDim S8192x8192 ![] bcast_S_S8192x8192),
    TRef.binary main_call0.v0 main_call0.call0.v0 main_call0.call0.v1 maximumf,
    TRef.unary main_call0.call0.cst main_call0.call0.v2 (broadcastInDim S8192x8192 ![] bcast_S_S8192x8192),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S8192x8192 ![] bcast_S_S8192x8192),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    nullary main_c (constantI S_ 1 1#1),
    unary main_c main_v6 (broadcastInDim S8192x8192 ![] bcast_S_S8192x8192 : (⟨S_, .i1⟩ : BufTy).Contents (Elt F) → (⟨S8192x8192, .i1⟩ : BufTy).Contents (Elt F)),
    TRef.nullary main_call1.v0 (iotaInDim S8192x8192 32 0),
    TRef.nullary main_call1.c (constantI S_ 32 0#32),
    TRef.unary main_call1.c main_call1.v1 (broadcastInDim S8192x8192 ![] bcast_S_S8192x8192),
    TRef.binary main_call1.v0 main_call1.v1 main_call1.v2 addi,
    TRef.nullary main_call1.v3 (iotaInDim S8192x8192 32 1),
    TRef.binary main_call1.v2 main_call1.v3 main_call1.v4 (cmpi .sge),
    TRef.nullary main_call1.c_0 (constantI S_ 1 0#1),
    TRef.unary main_call1.c_0 main_call1.v5 (broadcastInDim S8192x8192 ![] bcast_S_S8192x8192),
    TRef.ternary main_call1.v4 main_call1.v5 (.of main_v6 : TRef sig ⟨S8192x8192, .i1⟩) main_call1.v6 select,
    nullary main_cst (constant S_ .f32 0x00000000#32),
    TRef.unary (.of main_cst : TRef sig ⟨S_, .f32⟩) main_call2.v0 (broadcastInDim S8192x8192 ![] bcast_S_S8192x8192),
    TRef.ternary (.of main_v7 : TRef sig ⟨S8192x8192, .i1⟩) (.of main_v5 : TRef sig ⟨S8192x8192, .f32⟩) main_call2.v0 main_call2.v1 select,
    nullary main_cst_0 (constant S_ .f32 0x00000000#32),
    binary main_v8 main_cst_0 main_v9 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    unary main_v9 main_v10 (Host.negf : (⟨S_, .f32⟩ : BufTy).Contents (Elt F) → (⟨S_, .f32⟩ : BufTy).Contents (Elt F)),
    nullary main_cst_1 (constant S_ .f32 0x4BFFF800#32),
    binary main_v10 main_cst_1 main_v11 (Host.divf : (⟨S_, .f32⟩ : BufTy).Contents (Elt F) → (⟨S_, .f32⟩ : BufTy).Contents (Elt F) → (⟨S_, .f32⟩ : BufTy).Contents (Elt F)),
    reshape main_v11 main_v12 rfl shapeCasts_S_S1 ]

set_option maxRecDepth 4096 in
/-- The program is that straight line: each function's definition unfolded at its call, sequencing reassociated. -/
theorem main_eq (c : Dev nD) : main (F := F) c = seq ops := by
  simp only [main, fn_log_sigmoid.body, fn_softplus.body, fn_triu.body, fn_where.body, seq, bind_assoc, pure_bind]

/-- No buffer is scoped, -/
theorem scopedRefs_eq : (Finset.univ.filter fun b : Ref sig .tc => b.isScoped) = ∅ := by decide
/-- no semaphore is, -/
theorem scopedSems_eq : (Finset.univ.filter fun sm : SemLoc sig => sm.isScoped .tc) = ∅ := by decide

/-- and every operation touches device buffers only. -/
theorem ops_sub : (ops : List (HloOp τ sig (Elt F))).Forall fun op => op.bufs ⊆ tcRefs τ sig :=
  ⟨unary_bufs_sub .., unary_bufs_sub .., unary_bufs_sub .., unary_bufs_sub .., binary_bufs_sub ..,
    unary_bufs_sub .., nullary_bufs_sub .., unary_bufs_sub .., binary_bufs_sub .., unary_bufs_sub ..,
    binary_bufs_sub .., binary_bufs_sub .., unary_bufs_sub .., binary_bufs_sub .., unary_bufs_sub ..,
    unary_bufs_sub .., unary_bufs_sub .., unary_bufs_sub .., binary_bufs_sub .., ternary_bufs_sub ..,
    unary_bufs_sub ..,
    nullary_bufs_sub .., unary_bufs_sub ..,
    nullary_bufs_sub .., nullary_bufs_sub .., unary_bufs_sub .., binary_bufs_sub .., nullary_bufs_sub ..,
    binary_bufs_sub .., nullary_bufs_sub .., unary_bufs_sub .., ternary_bufs_sub ..,
    nullary_bufs_sub .., unary_bufs_sub .., ternary_bufs_sub ..,
    nullary_bufs_sub .., binary_bufs_sub .., unary_bufs_sub .., nullary_bufs_sub .., binary_bufs_sub .., reshape_bufs_sub ..⟩

/-- From any memory with zero counters every weakly fair execution terminates, and every final state has each buffer at
    the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The reference's result as one term of the argument -/

/-- The scalar zero, broadcast over the square. -/
def zeros : FVec Ideal S8192x8192 .f32 :=
  broadcastInDim S8192x8192 ![] bcast_S_S8192x8192 (constant (F := Ideal) S_ .f32 0x00000000#32)

/-- Row i, column j holds p i - p j: the column of p and the row of p, each spread over the square, subtracted. -/
def diffs (p : FVec Ideal S8192 .f32) : FVec Ideal S8192x8192 .f32 :=
  subf
    (broadcastInDim S8192x8192 ![0, 1] bcast_S8192x1_S8192x8192_0_1 (broadcastInDim S8192x1 ![0] bcast_S8192_S8192x1_0 p))
    (broadcastInDim S8192x8192 ![0, 1] bcast_S1x8192_S8192x8192_0_1 (broadcastInDim S1x8192 ![1] bcast_S8192_S1x8192_1 p))

/-- softplus over the square, with its guard "x - 0 differs from itself". -/
def softplusV (x : FVec Ideal S8192x8192 .f32) : FVec Ideal S8192x8192 .f32 :=
  select (cmpf .une (subf x zeros) (subf x zeros)) (addf x zeros)
    (addf (maximumf x zeros) (Host.log1p (Host.exp (Host.negf (Host.absf (subf x zeros))))))

/-- log-sigmoid over the square: minus softplus of minus. -/
def logSigV (d : FVec Ideal S8192x8192 .f32) : FVec Ideal S8192x8192 .f32 := Host.negf (softplusV (Host.negf d))

/-- The strict upper triangle: false where row + 0 ≥ column (as signed 32-bit integers), true elsewhere. -/
def upper : IVec S8192x8192 1 :=
  select
    (cmpi .sge
      (addi (iotaInDim S8192x8192 32 0) (broadcastInDim S8192x8192 ![] bcast_S_S8192x8192 (constantI S_ 32 0#32)))
      (iotaInDim S8192x8192 32 1))
    (broadcastInDim S8192x8192 ![] bcast_S_S8192x8192 (constantI S_ 1 0#1))
    (broadcastInDim S8192x8192 ![] bcast_S_S8192x8192 (constantI S_ 1 1#1))

/-- The terms kept: log-sigmoid of the difference on the strict upper triangle, zero elsewhere. -/
def kept (p : FVec Ideal S8192 .f32) : FVec Ideal S8192x8192 .f32 := select upper (logSigV (diffs p)) zeros

/-- The whole result: the kept terms summed from zero, negated, divided by the pair count, as a one-element vector. -/
def result (p : FVec Ideal S8192 .f32) : FVec Ideal S1 .f32 :=
  shapeCast S1
    (Host.divf
      (Host.negf (Host.reduceAdd (kept p) (constant (F := Ideal) S_ .f32 0x00000000#32) reducesTo_S8192x8192_S_d0_1 h_S_))
      (constant (F := Ideal) S_ .f32 0x4BFFF800#32))
    shapeCasts_S_S1

attribute [local irreducible] Host.reduceAdd in
set_option maxRecDepth 8192 in
/-- The operations' fold at the result buffer is that term of the argument's contents. -/
theorem result_eq (V : Valuation τ sig (Elt Ideal)) :
    after (ops (F := Ideal)) V (main_v12 : DevRef τ sig) = result (V (main_arg0 : DevRef τ sig)) := by
  after_results_simp
  rfl

set_option maxRecDepth 8192 in
/-- No operation writes the argument. -/
theorem arg_eq (V : Valuation τ sig (Elt Ideal)) :
    after (ops (F := Ideal)) V (main_arg0 : DevRef τ sig) = V (main_arg0 : DevRef τ sig) := by
  after_results_simp

/-! ## The term read at its one index -/

open Idealize.ShloMosaic.ValueIdx

/-- The broadcast zero is the extended real 0 everywhere. -/
theorem zeros_apply (j : S8192x8192.Idx) : zeros j = 0 := by
  show Ideal.ofBits .f32 0x00000000#32 = 0
  exact Ideal.ofBits_zero_f32

/-- The column of p spread over the square reads p at the row. -/
theorem col_apply (p : FVec Ideal S8192 .f32) (a b : Fin 8192) :
    broadcastInDim S8192x8192 ![0, 1] bcast_S8192x1_S8192x8192_0_1 (broadcastInDim S8192x1 ![0] bcast_S8192_S8192x1_0 p) (ix2 a b)
      = p (ix1 a) :=
  (broadcastInDim_apply _ _ _ (ix2 a b) (ix2 a (0 : Fin 1)) (fun d => match d with | ⟨0, _⟩ => rfl | ⟨1, _⟩ => rfl)).trans
    (broadcastInDim_apply _ _ p (ix2 a (0 : Fin 1)) (ix1 a) (fun d => match d with | ⟨0, _⟩ => rfl))

/-- The row of p spread over the square reads p at the column. -/
theorem row_apply (p : FVec Ideal S8192 .f32) (a b : Fin 8192) :
    broadcastInDim S8192x8192 ![0, 1] bcast_S1x8192_S8192x8192_0_1 (broadcastInDim S1x8192 ![1] bcast_S8192_S1x8192_1 p) (ix2 a b)
      = p (ix1 b) :=
  (broadcastInDim_apply _ _ _ (ix2 a b) (ix2 (0 : Fin 1) b) (fun d => match d with | ⟨0, _⟩ => rfl | ⟨1, _⟩ => rfl)).trans
    (broadcastInDim_apply _ _ p (ix2 (0 : Fin 1) b) (ix1 b) (fun d => match d with | ⟨0, _⟩ => rfl))

/-- Row a, column b of the differences is p a - p b. -/
theorem diffs_apply (p : FVec Ideal S8192 .f32) (a b : Fin 8192) : diffs p (ix2 a b) = p (ix1 a) - p (ix1 b) := by
  unfold diffs
  rw [subf_apply, col_apply, row_apply]

/-- log-sigmoid over the square is the specification's log-sigmoid at each entry: the guard never fires. -/
theorem logSigV_apply (d : FVec Ideal S8192x8192 .f32) (j : S8192x8192.Idx) : logSigV d j = Cert.PairLoss.logSig (d j) := by
  rw [← Cert.PairLoss.elem_neg]
  show -(Scalar.select (Ideal.cmp .une (-(d j) - zeros j) (-(d j) - zeros j)) (-(d j) + zeros j)
        (max (-(d j)) (zeros j) + Ideal.log1p (Ideal.exp (-(max (-(d j) - zeros j) (-(-(d j) - zeros j))))))) = _
  rw [zeros_apply]

/-- The mask is the strict upper triangle: coordinates below 8192 read as themselves as signed 32-bit integers. -/
theorem upper_apply (a b : Fin 8192) : upper (ix2 a b) = if a.val < b.val then 1#1 else 0#1 := by
  show Scalar.select (IntOp.cmpi .sge (IntOp.addi (BitVec.ofNat 32 a.val) 0#32) (BitVec.ofNat 32 b.val)) 0#1 1#1 = _
  have ha : (BitVec.ofNat 32 a.val).toInt = a.val := WordArith.toInt_ofNat_small _ (by have := a.isLt; omega)
  have hb : (BitVec.ofNat 32 b.val).toInt = b.val := WordArith.toInt_ofNat_small _ (by have := b.isLt; omega)
  have h0 : IntOp.addi (BitVec.ofNat 32 a.val) 0#32 = BitVec.ofNat 32 a.val := BitVec.add_zero _
  rw [h0]
  by_cases hab : a.val < b.val
  · rw [if_pos hab]
    have hc : IntOp.cmpi .sge (BitVec.ofNat 32 a.val) (BitVec.ofNat 32 b.val) = 0#1 :=
      eq_zero_of_ne_one fun h1 => by
        have := IntOp.cmpi_sge.mp h1
        rw [ha, hb] at this
        omega
    rw [hc, select_zero]
  · rw [if_neg hab]
    have hc : IntOp.cmpi .sge (BitVec.ofNat 32 a.val) (BitVec.ofNat 32 b.val) = 1#1 :=
      IntOp.cmpi_sge.mpr (by rw [ha, hb]; omega)
    rw [hc, select_one]

/-- A kept term is the specification's pair term. -/
theorem kept_apply (p : FVec Ideal S8192 .f32) (a b : Fin 8192) :
    kept p (ix2 a b) = Cert.PairLoss.pairTerm (fun i => p (ix1 i)) a b := by
  unfold kept Cert.PairLoss.pairTerm
  rw [select_apply, upper_apply, logSigV_apply, diffs_apply, zeros_apply]
  by_cases hab : a.val < b.val
  · rw [if_pos hab, if_pos hab, select_one]
  · rw [if_neg hab, if_neg hab, select_zero]

/-- The result's one entry is the loss of the argument. -/
theorem result_apply (p : FVec Ideal S8192 .f32) : result p = fun _ => Cert.PairLoss.loss (fun i => p (ix1 i)) := by
  funext j
  unfold result shapeCast
  show Ideal.div (-(Ideal.hostReduceAdd reducesTo_S8192x8192_S_d0_1 (kept p) (Ideal.ofBits .f32 0x00000000#32) _))
      (Ideal.ofBits .f32 0x4BFFF800#32) = _
  rw [Ideal.hostReduceAdd_total _ (fun b => b.elim0), Ideal.ofBits_zero_f32, zero_add, sum_idx2]
  unfold Cert.PairLoss.loss Cert.PairLoss.total Cert.PairLoss.pairCount
  simp only [kept_apply]

/-! ## The run leaves the loss -/

/-- Every weakly fair execution of the reference terminates with its result buffer holding, at its one entry, the
    pairwise loss of the argument's launch contents, and with the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
          = (fun _ => Cert.PairLoss.loss (fun i => m ((c.tc : Thread nD τ).loc main_arg0) (ValueIdx.ix1 i)))
      ∧ r.2.mem ((c.tc : Thread nD τ).loc main_arg0) = m ((c.tc : Thread nD τ).loc main_arg0) :=
  (θ_run defs _ _).mono
    (fun _ h c => ⟨((h c main_v12).trans (result_eq _)).trans (result_apply _), (h c main_arg0).trans (arg_eq _)⟩)
    (run_all m ρ)

end Cert.ReferenceIdeal.RefValue

end
-- ==== Proof.lean ====
/-
  The pairwise ranking loss: a kernel against its plain reference, equal on the extended reals.

  For a vector p of 8192 floats both programs compute  -( Σ_{i<j} logσ(p i - p j) ) / N,  N = 8192·8191/2,
  logσ(d) = -softplus(-d), softplus(x) = max x 0 + log(1 + exp(-|x|)).

  The reference builds the whole 8192 × 8192 table of terms, masks it to the pairs i < j and sums it in one reduction. The
  kernel walks the rows in 64 tiles of 128: at each grid point it forms the tile's 128 × 8192 terms from a column block and
  the whole row of p, masks them by comparing the row's number in the whole vector with the column's, sums the tile, and
  adds the tile sum to a running total it carries in a scratch cell (zeroed at the first point); at the last point it
  stores minus the total over N. On the extended reals a sum may be regrouped freely (addition is commutative and
  associative there, infinities included), the two spellings of one term agree (the guard "x ≠ x" inside softplus never
  fires, and 0 - x is -x), and both programs divide by the same constant: so the two results are the same extended real,
  whatever p holds — the precondition that p is finite is not used by the value.

  The pieces: Spec (the loss as a function of p; the two spellings of a term; 8192 rows as 64 tiles of 128), Pieces (what
  one grid point's stores leave, as the payloads of the body), Tile (a tile sum as a double sum of terms), Blocks (the
  windows' blocks as entries of p), Chain (the scratch cell after point n is the running total), Total (the running
  total after the last point is the specification's total; the output block is the loss), KernelRun (the result array and
  the reshape after the region: the kernel's run ends at the loss), RefValue (the reference's run ends at the loss).
  The kernel's idealization rewrote nothing, so the preservation claim has nothing to state.
-/
import proofs.«177602_j10359461118671_1_alg».proof.Defs
import proofs.«177602_j10359461118671_1_alg».proof.Proof.Gen.Kernel
import proofs.«177602_j10359461118671_1_alg».proof.Proof.Gen.Kernel.Skeleton
import proofs.«177602_j10359461118671_1_alg».proof.Proof.Gen.Kernel.Launch
import proofs.«177602_j10359461118671_1_alg».proof.Proof.Gen.Kernel.Points
import proofs.«177602_j10359461118671_1_alg».proof.Proof.Gen.Kernel.Frame
import proofs.«177602_j10359461118671_1_alg».proof.Proof.Gen.KernelIdeal
import proofs.«177602_j10359461118671_1_alg».proof.Proof.Gen.KernelIdeal.Skeleton
import proofs.«177602_j10359461118671_1_alg».proof.Proof.Gen.KernelIdeal.Launch
import proofs.«177602_j10359461118671_1_alg».proof.Proof.Gen.KernelIdeal.Points
import proofs.«177602_j10359461118671_1_alg».proof.Proof.Gen.KernelIdeal.Frame
import proofs.«177602_j10359461118671_1_alg».proof.Proof.Gen.ReferenceIdeal
import proofs.«177602_j10359461118671_1_alg».proof.Proof.Gen.Pre_finite_inputs
import proofs.«177602_j10359461118671_1_alg».proof.Proof.KernelRun
import proofs.«177602_j10359461118671_1_alg».proof.Proof.RefValue
import Idealize.ShloMosaic.Adequacy
import Idealize.ShloMosaic.Init

noncomputable section

namespace Cert.Proof

open Idealize.ShloMosaic Idealize.SL.Sem

/-- The word-level kernel runs and leaves its argument alone. -/
theorem frame_kernel : Cert.frame_Kernel :=
  fun m ρ _ => Cert.Kernel.Gen.frame m ρ

/-- So does its reading on the extended reals. -/
theorem frame_kernelIdeal : Cert.frame_KernelIdeal :=
  fun m ρ _ => Cert.KernelIdeal.Gen.frame m ρ

/-- The reference runs and leaves its argument alone: its run, with the result forgotten. -/
theorem frame_reference : Cert.frame_ReferenceIdeal :=
  fun m ρ _ => (θ_run Cert.ReferenceIdeal.defs _ _).mono (fun _ h c => (h c).2) (Cert.ReferenceIdeal.RefValue.run m ρ)

/-- From memories that agree on p, both runs end with the one-element result at the loss of p. -/
theorem algebraic : Cert.algebraic_KernelIdeal_ReferenceIdeal := by
  intro m ρ m' ρ' _ hagree
  refine ⟨fun c => fun _ => Cert.PairLoss.loss (Cert.KernelIdeal.KValue.inp m c), Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
